-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x65536 : Shape := ⟨3, ![64, 16, 65536]⟩
abbrev S_ : Shape := ⟨0, ![]⟩

class Facts : Prop where
  bcast_S_S64x16x65536 : S_.BroadcastsInDim S64x16x65536 (![] : Fin 0 → Fin S64x16x65536.rank)
  reducesTo_S64x16x65536_S_d0_1_2 : S64x16x65536.ReducesTo [0, 1, 2] S_
  h_S_ : 0 < S_.numel

variable [Facts]

def fn {F : FTy → Type} [FloatOps F] (main_arg0 : FVec F S64x16x65536 .f32) : IVec S_ 1 :=
  let main_v0 : FVec F S64x16x65536 .f32 := Host.absf main_arg0
  let main_cst : FVec F S_ .f32 := constant S_ .f32 0x7F800000#32
  let main_v1 : FVec F S64x16x65536 .f32 := broadcastInDim S64x16x65536 ![] bcast_S_S64x16x65536 main_cst
  let main_v2 : IVec S64x16x65536 1 := cmpf .olt main_v0 main_v1
  let main_c : IVec S_ 1 := constantI S_ 1 1#1
  let main_v3 : IVec S_ 1 := (fun x v => Host.reduce IntOp.andi x v reducesTo_S64x16x65536_S_d0_1_2 h_S_) main_v2 main_c
  main_v3
-- ==== Kernel.lean ====
abbrev S64x16x65536 : Shape := ⟨3, ![64, 16, 65536]⟩
abbrev S64x16x16 : Shape := ⟨3, ![64, 16, 16]⟩
abbrev S64x16x1 : Shape := ⟨3, ![64, 16, 1]⟩
abbrev S4x16x65536 : Shape := ⟨3, ![4, 16, 65536]⟩
abbrev S4x16x16 : Shape := ⟨3, ![4, 16, 16]⟩
abbrev S4x16x1 : Shape := ⟨3, ![4, 16, 1]⟩
abbrev S4x16 : Shape := ⟨2, ![4, 16]⟩
abbrev S64x16 : Shape := ⟨2, ![64, 16]⟩
abbrev S_ : Shape := ⟨0, ![]⟩
abbrev S64x1x16 : Shape := ⟨3, ![64, 1, 16]⟩
abbrev S16x16 : Shape := ⟨2, ![16, 16]⟩

abbrev nBuf : Space → Nat
  | .hbm => 53
  | .vmem => 6
  | .smem => 0
  | _ => 0

abbrev bufTy : (tb : Table) → Fin (tcTables nBuf tb) → BufTy
  | .hbm, ⟨0, _⟩ => ⟨S64x16x65536, .f32⟩
  | .hbm, ⟨1, _⟩ => ⟨S64x16x16, .f32⟩
  | .hbm, ⟨2, _⟩ => ⟨S64x16x1, .f32⟩
  | .hbm, ⟨3, _⟩ => ⟨S64x16, .f32⟩
  | .hbm, ⟨4, _⟩ => ⟨S_, .f32⟩
  | .hbm, ⟨5, _⟩ => ⟨S64x16, .f32⟩
  | .hbm, ⟨6, _⟩ => ⟨S64x16, .f32⟩
  | .hbm, ⟨7, _⟩ => ⟨S64x16, .f32⟩
  | .hbm, ⟨8, _⟩ => ⟨S64x16x1, .f32⟩
  | .hbm, ⟨9, _⟩ => ⟨S64x1x16, .f32⟩
  | .hbm, ⟨10, _⟩ => ⟨S64x16x16, .f32⟩
  | .hbm, ⟨11, _⟩ => ⟨S64x16x16, .f32⟩
  | .hbm, ⟨12, _⟩ => ⟨S64x16x16, .f32⟩
  | .hbm, ⟨13, _⟩ => ⟨S64x16x16, .f32⟩
  | .hbm, ⟨14, _⟩ => ⟨S64x16x1, .f32⟩
  | .hbm, ⟨15, _⟩ => ⟨S64x1x16, .f32⟩
  | .hbm, ⟨16, _⟩ => ⟨S64x16x16, .f32⟩
  | .hbm, ⟨17, _⟩ => ⟨S64x16x16, .f32⟩
  | .hbm, ⟨18, _⟩ => ⟨S64x16x16, .f32⟩
  | .hbm, ⟨19, _⟩ => ⟨S_, .f32⟩
  | .hbm, ⟨20, _⟩ => ⟨S64x16x16, .f32⟩
  | .hbm, ⟨21, _⟩ => ⟨S64x16x16, .f32⟩
  | .hbm, ⟨22, _⟩ => ⟨S_, .f32⟩
  | .hbm, ⟨23, _⟩ => ⟨S64x16x16, .f32⟩
  | .hbm, ⟨24, _⟩ => ⟨S64x16x16, .f32⟩
  | .hbm, ⟨25, _⟩ => ⟨S_, .f32⟩
  | .hbm, ⟨26, _⟩ => ⟨S64x16x16, .f32⟩
  | .hbm, ⟨27, _⟩ => ⟨S64x16x16, .f32⟩
  | .hbm, ⟨28, _⟩ => ⟨S64x16x16, .f32⟩
  | .hbm, ⟨29, _⟩ => ⟨S_, .f32⟩
  | .hbm, ⟨30, _⟩ => ⟨S16x16, .f32⟩
  | .hbm, ⟨31, _⟩ => ⟨S_, .f32⟩
  | .hbm, ⟨32, _⟩ => ⟨S16x16, .f32⟩
  | .hbm, ⟨33, _⟩ => ⟨S16x16, .f32⟩
  | .hbm, ⟨34, _⟩ => ⟨S_, .i1⟩
  | .hbm, ⟨35, _⟩ => ⟨S16x16, .i1⟩
  | .hbm, ⟨36, _⟩ => ⟨S16x16, .i32⟩
  | .hbm, ⟨37, _⟩ => ⟨S_, .i32⟩
  | .hbm, ⟨38, _⟩ => ⟨S16x16, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S_, .i1⟩
  | .hbm, ⟨43, _⟩ => ⟨S16x16, .i1⟩
  | .hbm, ⟨44, _⟩ => ⟨S16x16, .i1⟩
  | .hbm, ⟨45, _⟩ => ⟨S_, .f32⟩
  | .hbm, ⟨46, _⟩ => ⟨S_, .f32⟩
  | .hbm, ⟨47, _⟩ => ⟨S16x16, .f32⟩
  | .hbm, ⟨48, _⟩ => ⟨S16x16, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S4x16x65536, .f32⟩
  | .local _ .vmem, ⟨1, _⟩ => ⟨S4x16x65536, .f32⟩
  | .local _ .vmem, ⟨2, _⟩ => ⟨S4x16x16, .f32⟩
  | .local _ .vmem, ⟨3, _⟩ => ⟨S4x16x16, .f32⟩
  | .local _ .vmem, ⟨4, _⟩ => ⟨S4x16x1, .f32⟩
  | .local _ .vmem, ⟨5, _⟩ => ⟨S4x16x1, .f32⟩
  | _, _ => ⟨S64x16x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v27 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x16x65536_S4x16x65536_0_0_0 : ∀ a, (![0, 0, 0] : Fin 3 → Nat) a + S4x16x65536.size a ≤ S4x16x65536.size a
  h_S4x16x65536 : 0 < S4x16x65536.numel
  reduces_S4x16x65536_S4x16 : S4x16x65536.Reduces [2] S4x16
  shapeCasts_S4x16_S4x16x1 : S4x16.ShapeCasts S4x16x1
  inb_S4x16x1_S4x16x1_0_0_0 : ∀ a, (![0, 0, 0] : Fin 3 → Nat) a + S4x16x1.size a ≤ S4x16x1.size a
  h_S4x16x1 : 0 < S4x16x1.numel
  inb_S4x16x16_S4x16x16_0_0_0 : ∀ a, (![0, 0, 0] : Fin 3 → Nat) a + S4x16x16.size a ≤ S4x16x16.size a
  h_S4x16x16 : 0 < S4x16x16.numel
  shapeCasts_S64x16x1_S64x16 : S64x16x1.ShapeCasts S64x16
  bcast_S_S64x16 : S_.BroadcastsInDim S64x16 (![] : Fin 0 → Fin S64x16.rank)
  bcast_S64x16_S64x16x1_0_1 : S64x16.BroadcastsInDim S64x16x1 (![0, 1] : Fin 2 → Fin S64x16x1.rank)
  bcast_S64x16_S64x1x16_0_2 : S64x16.BroadcastsInDim S64x1x16 (![0, 2] : Fin 2 → Fin S64x1x16.rank)
  bcast_S64x16x1_S64x16x16_0_1_2 : S64x16x1.BroadcastsInDim S64x16x16 (![0, 1, 2] : Fin 3 → Fin S64x16x16.rank)
  bcast_S64x1x16_S64x16x16_0_1_2 : S64x1x16.BroadcastsInDim S64x16x16 (![0, 1, 2] : Fin 3 → Fin S64x16x16.rank)
  bcast_S_S64x16x16 : S_.BroadcastsInDim S64x16x16 (![] : Fin 0 → Fin S64x16x16.rank)
  reducesTo_S64x16x16_S16x16_d0 : S64x16x16.ReducesTo [0] S16x16
  h_S_ : 0 < S_.numel
  bcast_S_S16x16 : S_.BroadcastsInDim S16x16 (![] : Fin 0 → Fin S16x16.rank)
  reducesTo_S16x16_S_d0_1 : S16x16.ReducesTo [0, 1] S_
  dot_S4x16x65536_S4x16x65536_S4x16x16_2_2_1_1_0_0_wf : DotDims.WF S4x16x65536 S4x16x65536 S4x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16x65536.size a ≤ S64x16x65536.size a
  hwx0_0 : ∀ i : grid0.Coords, EltTy.bits .f32 = 32 ∨ (Rect.block (s := S64x16x65536) S4x16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16x16.size a ≤ S64x16x16.size a
  hwx0_1 : ∀ i : grid0.Coords, EltTy.bits .f32 = 32 ∨ (Rect.block (s := S64x16x16) S4x16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16x1.size a ≤ S64x16x1.size a
  hwx0_2 : ∀ i : grid0.Coords, EltTy.bits .f32 = 32 ∨ (Rect.block (s := S64x16x1) S4x16x1.size (cc0_transform_2 i) (hinb0_2 i)).WholeWords (EltTy.packing .f32)

variable [Facts₀]

def dot_S4x16x65536_S4x16x65536_S4x16x16_2_2_1_1_0_0 : DotDims S4x16x65536 S4x16x65536 S4x16x16 where
  lhsContracting := [2]
  rhsContracting := [2]
  lhsNonContracting := [1]
  rhsNonContracting := [1]
  lhsBatch := [0]
  rhsBatch := [0]
  wf := dot_S4x16x65536_S4x16x65536_S4x16x16_2_2_1_1_0_0_wf

abbrev win0_0 : Pipeline.Window sig grid0 :=
  Pipeline.Window.ofSpec (Memref.whole main_arg0) S4x16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4x16x16.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4x16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x16x65536 : Shape := ⟨3, ![64, 16, 65536]⟩
abbrev S_ : Shape := ⟨0, ![]⟩
abbrev S64x16 : Shape := ⟨2, ![64, 16]⟩
abbrev S64x16x1 : Shape := ⟨3, ![64, 16, 1]⟩
abbrev S64x16x16 : Shape := ⟨3, ![64, 16, 16]⟩
abbrev S64x1x16 : Shape := ⟨3, ![64, 1, 16]⟩
abbrev S16x16 : Shape := ⟨2, ![16, 16]⟩

abbrev nBuf : Space → Nat
  | .hbm => 51
  | .vmem => 0
  | .smem => 0
  | _ => 0

abbrev bufTy : (tb : Table) → Fin (tcTables nBuf tb) → BufTy
  | .hbm, ⟨0, _⟩ => ⟨S64x16x65536, .f32⟩
  | .hbm, ⟨1, _⟩ => ⟨S_, .f32⟩
  | .hbm, ⟨2, _⟩ => ⟨S64x16, .f32⟩
  | .hbm, ⟨3, _⟩ => ⟨S64x16x1, .f32⟩
  | .hbm, ⟨4, _⟩ => ⟨S_, .f32⟩
  | .hbm, ⟨5, _⟩ => ⟨S64x16x1, .f32⟩
  | .hbm, ⟨6, _⟩ => ⟨S64x16x1, .f32⟩
  | .hbm, ⟨7, _⟩ => ⟨S64x16x65536, .f32⟩
  | .hbm, ⟨8, _⟩ => ⟨S64x16x65536, .f32⟩
  | .hbm, ⟨9, _⟩ => ⟨S_, .f32⟩
  | .hbm, ⟨10, _⟩ => ⟨S64x16, .f32⟩
  | .hbm, ⟨11, _⟩ => ⟨S64x16x16, .f32⟩
  | .hbm, ⟨12, _⟩ => ⟨S64x16x1, .f32⟩
  | .hbm, ⟨13, _⟩ => ⟨S64x1x16, .f32⟩
  | .hbm, ⟨14, _⟩ => ⟨S64x16x16, .f32⟩
  | .hbm, ⟨15, _⟩ => ⟨S64x16x16, .f32⟩
  | .hbm, ⟨16, _⟩ => ⟨S64x16x16, .f32⟩
  | .hbm, ⟨17, _⟩ => ⟨S_, .f32⟩
  | .hbm, ⟨18, _⟩ => ⟨S64x16x16, .f32⟩
  | .hbm, ⟨19, _⟩ => ⟨S64x16x16, .f32⟩
  | .hbm, ⟨20, _⟩ => ⟨S_, .f32⟩
  | .hbm, ⟨21, _⟩ => ⟨S64x16x16, .f32⟩
  | .hbm, ⟨22, _⟩ => ⟨S64x16x16, .f32⟩
  | .hbm, ⟨23, _⟩ => ⟨S_, .f32⟩
  | .hbm, ⟨24, _⟩ => ⟨S64x16x16, .f32⟩
  | .hbm, ⟨25, _⟩ => ⟨S64x16x16, .f32⟩
  | .hbm, ⟨26, _⟩ => ⟨S64x16x16, .f32⟩
  | .hbm, ⟨27, _⟩ => ⟨S_, .f32⟩
  | .hbm, ⟨28, _⟩ => ⟨S16x16, .f32⟩
  | .hbm, ⟨29, _⟩ => ⟨S_, .f32⟩
  | .hbm, ⟨30, _⟩ => ⟨S16x16, .f32⟩
  | .hbm, ⟨31, _⟩ => ⟨S16x16, .f32⟩
  | .hbm, ⟨32, _⟩ => ⟨S_, .i1⟩
  | .hbm, ⟨33, _⟩ => ⟨S16x16, .i1⟩
  | .hbm, ⟨34, _⟩ => ⟨S16x16, .i32⟩
  | .hbm, ⟨35, _⟩ => ⟨S_, .i32⟩
  | .hbm, ⟨36, _⟩ => ⟨S16x16, .i32⟩
  | .hbm, ⟨37, _⟩ => ⟨S16x16, .i32⟩
  | .hbm, ⟨38, _⟩ => ⟨S16x16, .i32⟩
  | .hbm, ⟨39, _⟩ => ⟨S16x16, .i1⟩
  | .hbm, ⟨40, _⟩ => ⟨S_, .i1⟩
  | .hbm, ⟨41, _⟩ => ⟨S16x16, .i1⟩
  | .hbm, ⟨42, _⟩ => ⟨S16x16, .i1⟩
  | .hbm, ⟨43, _⟩ => ⟨S_, .f32⟩
  | .hbm, ⟨44, _⟩ => ⟨S_, .f32⟩
  | .hbm, ⟨45, _⟩ => ⟨S16x16, .f32⟩
  | .hbm, ⟨46, _⟩ => ⟨S16x16, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S64x16x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_0 : Ref sig .tc := ⟨.hbm, 40, rfl⟩
abbrev main_call0_v5 : Ref sig .tc := ⟨.hbm, 41, rfl⟩
abbrev main_v24 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩

abbrev nD : Nat := 1
abbrev τ : Topo := Topo.v7x

variable {F : FTy → Type} [FloatOps F]

class Facts₀ : Prop where
  reducesTo_S64x16x65536_S64x16_d2 : S64x16x65536.ReducesTo [2] S64x16
  h_S_ : 0 < S_.numel
  bcast_S64x16_S64x16x1_0_1 : S64x16.BroadcastsInDim S64x16x1 (![0, 1] : Fin 2 → Fin S64x16x1.rank)
  bcast_S_S64x16x1 : S_.BroadcastsInDim S64x16x1 (![] : Fin 0 → Fin S64x16x1.rank)
  bcast_S64x16x1_S64x16x65536_0_1_2 : S64x16x1.BroadcastsInDim S64x16x65536 (![0, 1, 2] : Fin 3 → Fin S64x16x65536.rank)
  bcast_S64x16_S64x1x16_0_2 : S64x16.BroadcastsInDim S64x1x16 (![0, 2] : Fin 2 → Fin S64x1x16.rank)
  bcast_S64x16x1_S64x16x16_0_1_2 : S64x16x1.BroadcastsInDim S64x16x16 (![0, 1, 2] : Fin 3 → Fin S64x16x16.rank)
  bcast_S64x1x16_S64x16x16_0_1_2 : S64x1x16.BroadcastsInDim S64x16x16 (![0, 1, 2] : Fin 3 → Fin S64x16x16.rank)
  bcast_S_S64x16x16 : S_.BroadcastsInDim S64x16x16 (![] : Fin 0 → Fin S64x16x16.rank)
  reducesTo_S64x16x16_S16x16_d0 : S64x16x16.ReducesTo [0] S16x16
  bcast_S_S16x16 : S_.BroadcastsInDim S16x16 (![] : Fin 0 → Fin S16x16.rank)
  reducesTo_S16x16_S_d0_1 : S16x16.ReducesTo [0, 1] S_
  dot_S64x16x65536_S64x16x65536_S64x16x16_2_2_1_1_0_0_wf : DotDims.WF S64x16x65536 S64x16x65536 S64x16x16 [2] [2] [1] [1] [0] [0]

variable [Facts₀]

def dot_S64x16x65536_S64x16x65536_S64x16x16_2_2_1_1_0_0 : DotDims S64x16x65536 S64x16x65536 S64x16x16 where
  lhsContracting := [2]
  rhsContracting := [2]
  lhsNonContracting := [1]
  rhsNonContracting := [1]
  lhsBatch := [0]
  rhsBatch := [0]
  wf := dot_S64x16x65536_S64x16x65536_S64x16x16_2_2_1_1_0_0_wf

class Facts : Prop extends Facts₀ where

variable [Facts]
-- ==== Proof.LibLayout.lean ====
/-
  Shape casts that add or drop a UNIT axis somewhere other than the front, and broadcasts of a unit axis, read at an
  index given by coordinates: the forms a reduction with kept dimensions meets ([a] ↔ [a,1], [a,b] ↔ [a,1,b],
  [a,b] → [a,b,1], [a,b,c] → [a,b,c,1], [a,b] → [a,1,1,b]; [a,1] → [a,b], [a,b,1] → [a,b,c], [a,b,c,1] → [a,b,c,d],
  [a,1,1,d] → [a,b,c,d]). A shape cast keeps the row-major position, and a unit axis contributes nothing to it; a
  broadcast reads coordinate 0 on the operand's unit axes and the result's coordinate elsewhere.
-/
import Idealize.ShloMosaic.Lib.Pipeline.Value
import Idealize.ShloMosaic.Lib.ValueIdx

namespace Cert.LibLayout

open Idealize.ShloMosaic Idealize.ShloMosaic.ValueIdx

variable {α : Type}

/-! ## Shape casts -/

/-- `[a] → [a,1]`: at (p, u) the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- `[a,b] → [a,1,b]`: at (p, u, q) the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a,1,b] → [a,b]`: at (p, q) the operand at (p, 0, q). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- `[a,b] → [a,b,1]`: at (p, q, u) the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a,b,c] → [a,b,c,1]`: at (p, q, r, u) the operand at (p, q, r). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- `[a,b] → [a,1,1,b]`: at (p, u, v, q) the operand at (p, q). -/
theorem shapeCast_ab_a11b_apply {a b : ℕ} (x : (⟨2, ![a, b]⟩ : Shape).Idx → α)
    (h : (⟨2, ![a, b]⟩ : Shape).ShapeCasts ⟨4, ![a, 1, 1, b]⟩) (p : Fin a) (u v : Fin 1) (q : Fin b) :
    shapeCast ⟨4, ![a, 1, 1, b]⟩ x h (ix4 p u v q) = x (ix2 p q) :=
  shapeCast_apply x h _ _ (by
    have hu : u.val = 0 := by omega
    have hv : v.val = 0 := by omega
    rw [Shape.rowMajor_val_two, Shape.rowMajor_val_four]
    show p.val * b + q.val = ((p.val * 1 + u.val) * 1 + v.val) * b + q.val
    simp only [hu, hv, Nat.mul_one, Nat.add_zero])

/-! ## Broadcasts of unit axes -/

/-- `[a,1] → [a,b]`: at (p, q) the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a,b,1] → [a,b,c]`: at (p, q, r) the operand's entry of (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a,b,c,1] → [a,b,c,d]`: at (p, q, r, s) the operand's entry of (p, q, r). -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- `[a,1,1,d] → [a,b,c,d]`: at (p, q, r, s) the operand's entry of (p, s). -/
theorem broadcastTo_a11d_abcd_apply {a b c d : ℕ} (v : (⟨4, ![a, 1, 1, d]⟩ : Shape).Idx → α)
    (h : (⟨4, ![a, 1, 1, d]⟩ : Shape).Broadcasts ⟨4, ![a, b, c, d]⟩) (p : Fin a) (q : Fin b) (r : Fin c) (s : Fin d) :
    broadcastTo ⟨4, ![a, b, c, d]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if d = 1 then 0 else s.val
    split
    · have := s.isLt; omega
    · rfl

end Cert.LibLayout
-- ==== Proof.LibDepthAxis.lean ====
/-
  Rank-3 arrays [a, b, e] read along their LAST axis, by coordinates. An array with a unit middle axis copied along
  it ([a,1,e] → [a,b,e]) reads at (p, q, k) its entry (p, 0, k); one with a unit leading axis copied along it
  ([1,b,e] → [a,b,e]) reads its entry (0, q, k). The index (p, q) of the reduced array with the coordinate k put back
  on axis 2 is (p, q, k); so, over the extended reals, the vector unit's maximum over axis 2 and the host's
  one-operand reduce with a maximum body over axis 2 are, at (p, q), the fold of `max` from the initial value over
  k : Fin e of the entry (p, q, k). Generic in a, b and e.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibDepthAxis

open Idealize.ShloMosaic Idealize.ShloMosaic.ValueIdx

variable {a b e : ℕ}

/-! ## Copies along a unit axis -/

section Copies
variable {α : Type}

/-- `[a,1,e] → [a,b,e]`: at (p, q, k) the operand's entry (p, 0, k). -/
theorem broadcastTo_a1e_abe_apply (v : (⟨3, ![a, 1, e]⟩ : Shape).Idx → α)
    (h : (⟨3, ![a, 1, e]⟩ : Shape).Broadcasts ⟨3, ![a, b, e]⟩) (p : Fin a) (q : Fin b) (k : Fin e) :
    broadcastTo ⟨3, ![a, b, e]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if e = 1 then 0 else k.val
    split
    · have := k.isLt; omega
    · rfl

/-- `[1,b,e] → [a,b,e]`: at (p, q, k) the operand's entry (0, q, k). -/
theorem broadcastTo_1be_abe_apply (v : (⟨3, ![1, b, e]⟩ : Shape).Idx → α)
    (h : (⟨3, ![1, b, e]⟩ : Shape).Broadcasts ⟨3, ![a, b, e]⟩) (p : Fin a) (q : Fin b) (k : Fin e) :
    broadcastTo ⟨3, ![a, b, e]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if e = 1 then 0 else k.val
    split
    · have := k.isLt; omega
    · rfl

end Copies

/-! ## The maximum over the last axis -/

/-- The reduced index (p, q) with the coordinate k put back on axis 2 is (p, q, k). -/
theorem lift_last (h : Shape.Reduces ⟨3, ![a, b, e]⟩ [2] ⟨2, ![a, b]⟩) (p : Fin a) (q : Fin b) (k : Fin e) :
    h.lift (ix2 p q) k = ix3 p q k := by
  funext d
  apply Fin.ext
  match d with
  | ⟨0, _⟩ => rfl
  | ⟨1, _⟩ => rfl
  | ⟨2, _⟩ => rfl

/-- The vector unit's maximum over axis 2, at (p, q): the fold of `max` from the accumulator's value over the
    entries (p, q, k). -/
theorem multiReduction_max_last {φ : FTy} (x : FVec Ideal ⟨3, ![a, b, e]⟩ φ) (acc : BitVec φ.bits)
    (h : Shape.Reduces ⟨3, ![a, b, e]⟩ [2] ⟨2, ![a, b]⟩) (hφ : FKind.Formats φ)
    (hacc : acc = FKind.maximumf.neutral φ hφ) (p : Fin a) (q : Fin b) :
    multiReduction .maximumf [2] ⟨2, ![a, b]⟩ x acc h hφ hacc (ix2 p q)
      = (Finset.univ : Finset (Fin e)).fold max (Ideal.ofBits φ acc) fun k => x (ix3 p q k) := by
  refine (Ideal.multiReduction_maximumf_single x acc h hφ hacc (ix2 p q)).trans ?_
  refine congrArg (Finset.fold max _ · Finset.univ) (funext fun k => ?_)
  exact congrArg x (lift_last h p q k)

/-- The host's reduce with a maximum body over axis 2, at (p, q): the fold of `max` from the initial value over the
    entries (p, q, k). -/
theorem hostReduce_max_last {φ : FTy} {u : Shape} (x : FVec Ideal ⟨3, ![a, b, e]⟩ φ) (init : u.Idx → EReal)
    (h' : Shape.ReducesTo ⟨3, ![a, b, e]⟩ [2] ⟨2, ![a, b]⟩) (h : Shape.Reduces ⟨3, ![a, b, e]⟩ [2] ⟨2, ![a, b]⟩)
    (hu : 0 < u.numel) (p : Fin a) (q : Fin b) :
    Host.reduce (FloatOps.maximumf (F := Ideal) (φ := φ)) x init h' hu (ix2 p q)
      = (Finset.univ : Finset (Fin e)).fold max (init (Shape.Idx.first hu)) fun k => x (ix3 p q k) := by
  refine (Host.reduce_eq_fold_single (FloatOps.maximumf (F := Ideal) (φ := φ)) x init h' h hu (ix2 p q)).trans ?_
  refine congrArg (Finset.fold max _ · Finset.univ) (funext fun k => ?_)
  exact congrArg x (lift_last h p q k)

end Cert.LibDepthAxis

end
-- ==== Proof.RegionValue.lean ====
/-
  What the kernel's region leaves in its two output arrays, on the extended reals.

  The grid has 16 points; point t works on the 4 batches 4t … 4t+3: its input block is rows 4t … 4t+3 of the
  [64,16,65536] argument (whole along the other two axes), and its two output blocks are rows 4t … 4t+3 of the
  [64,16,16] and [64,16,1] results.  The body stores, for each batch p of the block, the sum over the last axis of
  every row (kept as a unit axis) and the products of every pair of rows summed over the last axis (a batched matrix
  product into the zero accumulator).  Since block row p of point t is array row 4t + p, the blocks are restrictions
  of two whole-array functions of the argument, and since every row lies in exactly one block they fill the arrays:

    gramOf a (b, k, l) = Σ_n a(b,k,n) · a(b,l,n)        rowSumOf a (b, k, 0) = Σ_n a(b,k,n).
-/
import proofs.«156528_j19550691131598_1_alg».proof.Proof.Gen.KernelIdeal.Frame
import proofs.«156528_j19550691131598_1_alg».proof.Proof.LibLayout
import proofs.«156528_j19550691131598_1_alg».proof.Proof.LibDepthAxis
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

variable [Cert.KernelIdeal.Facts]

/-! ## The two whole-array functions -/

/-- Pairwise products of the rows of a batch, summed over the last axis. -/
def gramOf (a : S64x16x65536.Idx → EReal) : S64x16x16.Idx → EReal :=
  fun i => ∑ n : Fin 65536, a (ix3 (i 0) (i 1) n) * a (ix3 (i 0) (i 2) n)

/-- Every row summed over the last axis, the axis kept with extent one. -/
def rowSumOf (a : S64x16x65536.Idx → EReal) : S64x16x1.Idx → EReal :=
  fun i => ∑ n : Fin 65536, a (ix3 (i 0) (i 1) n)

/-! ## The body's two stored values at an index of the block -/

/-- The stored row sums: at (p, q, ·) the sum of row (p, q) of the loaded block. -/
theorem rowSums_apply (x0 : FVec Ideal S4x16x65536 .f32) (j : S4x16x1.Idx) :
    k0_pay1 (F := Ideal) x0 j = ∑ n : Fin 65536, x0 (ix3 (j 0) (j 1) n) := by
  obtain ⟨p, q, u, rfl⟩ : ∃ (p : Fin 4) (q : Fin 16) (u : Fin 1), j = ix3 p q u := ⟨j 0, j 1, j 2, eq_ix3 j⟩
  unfold k0_pay1
  refine (Cert.LibLayout.shapeCast_ab_ab1_apply _ Facts₀.shapeCasts_S4x16_S4x16x1 p q u).trans ?_
  refine (Ideal.multiReduction_add_single (φ := .f32) x0 _ Facts₀.reduces_S4x16x65536_S4x16 (.inl rfl) rfl (ix2 p q)).trans ?_
  exact Finset.sum_congr rfl fun n _ => congrArg x0 (Cert.LibDepthAxis.lift_last _ p q n)

local notation "dotK" => dot_S4x16x65536_S4x16x65536_S4x16x16_2_2_1_1_0_0

theorem lhs0 (i : S4x16x16.Idx) (q : (dotK).contr.Idx) : ((dotK).lhsIdx i q 0).val = (i 0).val := by
  unfold DotDims.lhsIdx
  rw [dif_pos (show (0 : Fin S4x16x65536.rank) ∈ (dotK).lhsBatch by decide)]
  rfl
theorem lhs1 (i : S4x16x16.Idx) (q : (dotK).contr.Idx) : ((dotK).lhsIdx i q 1).val = (i 1).val := by
  unfold DotDims.lhsIdx
  rw [dif_neg (show ¬(1 : Fin S4x16x65536.rank) ∈ (dotK).lhsBatch by decide),
    dif_pos (show (1 : Fin S4x16x65536.rank) ∈ (dotK).lhsNonContracting by decide)]
  rfl
theorem lhs2 (i : S4x16x16.Idx) (q : (dotK).contr.Idx) : ((dotK).lhsIdx i q 2).val = (q ⟨0, by decide⟩).val :=
  (dotK).lhsIdx_val_of_single rfl i q
theorem rhs0 (i : S4x16x16.Idx) (q : (dotK).contr.Idx) : ((dotK).rhsIdx i q 0).val = (i 0).val := by
  unfold DotDims.rhsIdx
  rw [dif_pos (show (0 : Fin S4x16x65536.rank) ∈ (dotK).rhsBatch by decide)]
  rfl
theorem rhs1 (i : S4x16x16.Idx) (q : (dotK).contr.Idx) : ((dotK).rhsIdx i q 1).val = (i 2).val := by
  unfold DotDims.rhsIdx
  rw [dif_neg (show ¬(1 : Fin S4x16x65536.rank) ∈ (dotK).rhsBatch by decide),
    dif_pos (show (1 : Fin S4x16x65536.rank) ∈ (dotK).rhsNonContracting by decide)]
  rfl
theorem rhs2 (i : S4x16x16.Idx) (q : (dotK).contr.Idx) : ((dotK).rhsIdx i q 2).val = (q ⟨0, by decide⟩).val :=
  (dotK).rhsIdx_val_of_single rfl i q

/-- The stored products: at (p, q, r) the sum over n of row (p, q) times row (p, r) of the loaded block. -/
theorem gram_apply (x0 : FVec Ideal S4x16x65536 .f32) (j : S4x16x16.Idx) :
    k0_pay2 (F := Ideal) x0 j = ∑ n : Fin 65536, x0 (ix3 (j 0) (j 1) n) * x0 (ix3 (j 0) (j 2) n) := by
  unfold k0_pay2
  refine (Ideal.matmul_constant_zero_apply (dotK) (some .fp32) x0 x0 j).trans ?_
  rw [← Equiv.sum_comp (ValueIdx.contrEquiv1 (dotK) 65536 rfl rfl).symm]
  refine Finset.sum_congr rfl fun n _ => ?_
  have hk := ValueIdx.contrEquiv1_symm_val (dotK) 65536 rfl rfl n
  have el : (dotK).lhsIdx j ((ValueIdx.contrEquiv1 (dotK) 65536 rfl rfl).symm n) = ix3 (j 0) (j 1) n :=
    funext fun a => Fin.ext (by
      match a with
      | ⟨0, _⟩ => exact lhs0 _ _
      | ⟨1, _⟩ => exact lhs1 _ _
      | ⟨2, _⟩ => exact (lhs2 _ _).trans hk)
  have er : (dotK).rhsIdx j ((ValueIdx.contrEquiv1 (dotK) 65536 rfl rfl).symm n) = ix3 (j 0) (j 2) n :=
    funext fun a => Fin.ext (by
      match a with
      | ⟨0, _⟩ => exact rhs0 _ _
      | ⟨1, _⟩ => exact rhs1 _ _
      | ⟨2, _⟩ => exact (rhs2 _ _).trans hk)
  exact congrArg₂ (fun u v => x0 u * x0 v) el er

/-! ## From the blocks to the arrays -/

variable (m : (ℓ : Loc nD τ sig) → Buf (Elt Ideal) ℓ)

theorem zero3 : (![0, 0, 0] : Fin 3 → Nat) = fun _ => 0 := funext fun a => by fin_cases a <;> rfl

/-- The three windows move together along the batch axis and stay at block 0 on the other two axes. -/
theorem index_facts : ∀ t : Fin cfg0.N,
    win0_0.index t (0 : Fin 3) = win0_1.index t (0 : Fin 3) ∧ win0_0.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0 :=
  (by decide +kernel : ∀ t : Fin grid0.N, _)

/-- Every group of four batches is some point's block of the Gram array, -/
theorem index_onto1 : ∀ q : Fin 16, ∃ t : Fin cfg0.N, win0_1.index t = ![q.val, 0, 0] :=
  (by decide +kernel : ∀ q : Fin 16, ∃ t : Fin grid0.N, win0_1.index t = ![q.val, 0, 0])

/-- and of the row-sum array. -/
theorem index_onto2 : ∀ q : Fin 16, ∃ t : Fin cfg0.N, win0_2.index t = ![q.val, 0, 0] :=
  (by decide +kernel : ∀ q : Fin 16, ∃ t : Fin grid0.N, win0_2.index t = ![q.val, 0, 0])

/-- If block entry (p, q, n) of a [4,16,65536] block is array entry (4T + p, q, n), the block's pairwise products are
    gramOf of the array at the batch 4T + p. -/
theorem gram_of_rows (A : S64x16x65536.Idx → EReal) (x0 : FVec Ideal S4x16x65536 .f32) (T : ℕ)
    (hx : ∀ (y : S4x16x65536.Idx) (y' : S64x16x65536.Idx), (y' 0).val = T * 4 + (y 0).val → (y' 1).val = (y 1).val →
      (y' 2).val = (y 2).val → x0 y = A y')
    (j : S4x16x16.Idx) (i : S64x16x16.Idx) (h0 : (i 0).val = T * 4 + (j 0).val) (h1 : (i 1).val = (j 1).val)
    (h2 : (i 2).val = (j 2).val) :
    ∑ n : Fin 65536, x0 (ix3 (j 0) (j 1) n) * x0 (ix3 (j 0) (j 2) n) = gramOf A i := by
  unfold gramOf
  refine Finset.sum_congr rfl fun n _ => ?_
  rw [hx (ix3 (j 0) (j 1) n) (ix3 (i 0) (i 1) n) h0 h1 rfl, hx (ix3 (j 0) (j 2) n) (ix3 (i 0) (i 2) n) h0 h2 rfl]

/-- The same for the row sums. -/
theorem rowSum_of_rows (A : S64x16x65536.Idx → EReal) (x0 : FVec Ideal S4x16x65536 .f32) (T : ℕ)
    (hx : ∀ (y : S4x16x65536.Idx) (y' : S64x16x65536.Idx), (y' 0).val = T * 4 + (y 0).val → (y' 1).val = (y 1).val →
      (y' 2).val = (y 2).val → x0 y = A y')
    (j : S4x16x1.Idx) (i : S64x16x1.Idx) (h0 : (i 0).val = T * 4 + (j 0).val) (h1 : (i 1).val = (j 1).val) :
    ∑ n : Fin 65536, x0 (ix3 (j 0) (j 1) n) = rowSumOf A i := by
  unfold rowSumOf
  refine Finset.sum_congr rfl fun n _ => ?_
  rw [hx (ix3 (j 0) (j 1) n) (ix3 (i 0) (i 1) n) h0 h1 rfl]

/-- Point t's input block is rows 4t … 4t+3 of the argument, whole along the other axes. -/
theorem input_block (c : Dev nD) (t : Fin cfg0.N) (T : ℕ) (hT : win0_0.index t (0 : Fin 3) = T)
    (y : S4x16x65536.Idx) (y' : S64x16x65536.Idx) (h0 : (y' 0).val = T * 4 + (y 0).val) (h1 : (y' 1).val = (y 1).val)
    (h2 : (y' 2).val = (y 2).val) : iblk m c 0 t y = V m c main_arg0 y' := by
  obtain ⟨e01, e02, e1, e2, f1, f2, g1, g2⟩ := index_facts t
  show V m c main_arg0 (((cfg0.win 0).blk t).view.emb y) = V m c main_arg0 y'
  refine congrArg (V m c main_arg0) (funext fun a => Fin.ext ?_)
  match a with
  | ⟨0, _⟩ => show win0_0.index t (0 : Fin 3) * 4 + 1 * (y 0).val = (y' 0).val; omega
  | ⟨1, _⟩ => show win0_0.index t (1 : Fin 3) * 16 + 1 * (y 1).val = (y' 1).val; omega
  | ⟨2, _⟩ => show win0_0.index t (2 : Fin 3) * 65536 + 1 * (y 2).val = (y' 2).val; omega

/-- What point t writes back into the Gram array is block t of gramOf of the argument. -/
theorem gram_flushed (c : Dev nD) (t : Fin cfg0.N) :
    (dats m 0 c).flushed 1 t = ((cfg0.win 1).blk t).view.read (Elt Ideal) (gramOf (V m c main_arg0)) := by
  show (cfg0.win 1).cut (grid0.coords t) ((dats m 0 c).after 1 t) = _
  rw [after0_1]
  unfold out0_1
  rw [View.canon_unit_zero zero3]
  simp only [View.ld_unit_zero (S := S4x16x65536) zero3]
  obtain ⟨e01, e02, e1, e2, f1, f2, g1, g2⟩ := index_facts t
  refine funext fun (j : S4x16x16.Idx) => ?_
  refine (gram_apply (iblk m c 0 t) j).trans ?_
  obtain ⟨i, hi⟩ : ∃ i : S64x16x16.Idx, i = ((cfg0.win 1).blk t).view.emb j := ⟨_, rfl⟩
  have hrows : ∀ (y : S4x16x65536.Idx) (y' : S64x16x65536.Idx),
      (y' 0).val = win0_1.index t (0 : Fin 3) * 4 + (y 0).val → (y' 1).val = (y 1).val → (y' 2).val = (y 2).val →
      iblk m c 0 t y = V m c main_arg0 y' := fun y y' h0 h1 h2 => input_block m c t _ e01 y y' h0 h1 h2
  have c0 : (i 0).val = win0_1.index t (0 : Fin 3) * 4 + (j 0).val := by
    rw [hi]; show win0_1.index t (0 : Fin 3) * 4 + 1 * (j 0).val = win0_1.index t (0 : Fin 3) * 4 + (j 0).val; omega
  have c1 : (i 1).val = (j 1).val := by
    rw [hi]; show win0_1.index t (1 : Fin 3) * 16 + 1 * (j 1).val = (j 1).val; omega
  have c2 : (i 2).val = (j 2).val := by
    rw [hi]; show win0_1.index t (2 : Fin 3) * 16 + 1 * (j 2).val = (j 2).val; omega
  refine (gram_of_rows (V m c main_arg0) (iblk m c 0 t) (win0_1.index t (0 : Fin 3)) hrows j i c0 c1 c2).trans ?_
  rw [hi]
  generalize gramOf (V m c main_arg0) = G
  rfl

/-- What point t writes back into the row-sum array is block t of rowSumOf of the argument. -/
theorem rowSum_flushed (c : Dev nD) (t : Fin cfg0.N) :
    (dats m 0 c).flushed 2 t = ((cfg0.win 2).blk t).view.read (Elt Ideal) (rowSumOf (V m c main_arg0)) := by
  show (cfg0.win 2).cut (grid0.coords t) ((dats m 0 c).after 2 t) = _
  rw [after0_2]
  unfold out0_2
  rw [View.canon_unit_zero zero3]
  simp only [View.ld_unit_zero (S := S4x16x65536) zero3]
  obtain ⟨e01, e02, e1, e2, f1, f2, g1, g2⟩ := index_facts t
  refine funext fun (j : S4x16x1.Idx) => ?_
  refine (rowSums_apply (iblk m c 0 t) j).trans ?_
  obtain ⟨i, hi⟩ : ∃ i : S64x16x1.Idx, i = ((cfg0.win 2).blk t).view.emb j := ⟨_, rfl⟩
  have hrows : ∀ (y : S4x16x65536.Idx) (y' : S64x16x65536.Idx),
      (y' 0).val = win0_2.index t (0 : Fin 3) * 4 + (y 0).val → (y' 1).val = (y 1).val → (y' 2).val = (y 2).val →
      iblk m c 0 t y = V m c main_arg0 y' := fun y y' h0 h1 h2 => input_block m c t _ e02 y y' h0 h1 h2
  have c0 : (i 0).val = win0_2.index t (0 : Fin 3) * 4 + (j 0).val := by
    rw [hi]; show win0_2.index t (0 : Fin 3) * 4 + 1 * (j 0).val = win0_2.index t (0 : Fin 3) * 4 + (j 0).val; omega
  have c1 : (i 1).val = (j 1).val := by
    rw [hi]; show win0_2.index t (1 : Fin 3) * 16 + 1 * (j 1).val = (j 1).val; omega
  refine (rowSum_of_rows (V m c main_arg0) (iblk m c 0 t) (win0_2.index t (0 : Fin 3)) hrows j i c0 c1).trans ?_
  rw [hi]
  generalize rowSumOf (V m c main_arg0) = G
  rfl

/-- An index of the Gram array is in point t's block iff each coordinate is in the block's range on its axis. -/
theorem mem_block1 (t : Fin cfg0.N) (i : S64x16x16.Idx) :
    i ∈ ((cfg0.win 1).blk t).view.set ↔ ∀ a : Fin 3, win0_1.index t a * S4x16x16.size a ≤ (i a).val
      ∧ (i a).val < win0_1.index t a * S4x16x16.size a + S4x16x16.size a := by
  show i ∈ ((View.whole main_v0_0).slice (win0_1.rect t)).set ↔ _
  rw [View.set_slice_whole, Rect.mem_set_unit]
  exact Iff.rfl

theorem mem_block2 (t : Fin cfg0.N) (i : S64x16x1.Idx) :
    i ∈ ((cfg0.win 2).blk t).view.set ↔ ∀ a : Fin 3, win0_2.index t a * S4x16x1.size a ≤ (i a).val
      ∧ (i a).val < win0_2.index t a * S4x16x1.size a + S4x16x1.size a := by
  show i ∈ ((View.whole main_v0_1).slice (win0_2.rect t)).set ↔ _
  rw [View.set_slice_whole, Rect.mem_set_unit]
  exact Iff.rfl

/-- Batch b lies in the block of the point that works on the group b / 4. -/
theorem gram_cover (i : S64x16x16.Idx) :
    ∃ t : Fin cfg0.N, (cfg0.win 1).flush t = true ∧ i ∈ ((cfg0.win 1).blk t).view.set := by
  have hi0 : (i 0).val < 64 := (i 0).isLt
  have hi1 : (i 1).val < 16 := (i 1).isLt
  have hi2 : (i 2).val < 16 := (i 2).isLt
  obtain ⟨t, ht⟩ := index_onto1 ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_block1]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 16 ≤ (i 1).val ∧ (i 1).val < win0_1.index t (1 : Fin 3) * 16 + 16; omega
  | ⟨2, _⟩ => show win0_1.index t (2 : Fin 3) * 16 ≤ (i 2).val ∧ (i 2).val < win0_1.index t (2 : Fin 3) * 16 + 16; omega

theorem rowSum_cover (i : S64x16x1.Idx) :
    ∃ t : Fin cfg0.N, (cfg0.win 2).flush t = true ∧ i ∈ ((cfg0.win 2).blk t).view.set := by
  have hi0 : (i 0).val < 64 := (i 0).isLt
  have hi1 : (i 1).val < 16 := (i 1).isLt
  have hi2 : (i 2).val < 1 := (i 2).isLt
  obtain ⟨t, ht⟩ := index_onto2 ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_block2]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 16 ≤ (i 1).val ∧ (i 1).val < win0_2.index t (1 : Fin 3) * 16 + 16; omega
  | ⟨2, _⟩ => show win0_2.index t (2 : Fin 3) * 1 ≤ (i 2).val ∧ (i 2).val < win0_2.index t (2 : Fin 3) * 1 + 1; omega

/-- After the region the Gram array holds gramOf of the argument, -/
theorem gram_final (c : Dev nD) :
    (dats m 0 c).arrAt 1 cfg0.N = gramOf (m ((c : Thread nD τ).loc main_arg0)) :=
  (dats m 0 c).arrAt_eq_of_cover 1 (gramOf (V m c main_arg0)) (fun t _ => gram_flushed m c t) gram_cover

/-- and the row-sum array rowSumOf of the argument. -/
theorem rowSum_final (c : Dev nD) :
    (dats m 0 c).arrAt 2 cfg0.N = rowSumOf (m ((c : Thread nD τ).loc main_arg0)) :=
  (dats m 0 c).arrAt_eq_of_cover 2 (rowSumOf (V m c main_arg0)) (fun t _ => rowSum_flushed m c t) rowSum_cover

/-- The two functions at coordinates. -/
theorem gramOf_apply (a : S64x16x65536.Idx → EReal) (b : Fin 64) (k l : Fin 16) :
    gramOf a (ix3 b k l) = ∑ n : Fin 65536, a (ix3 b k n) * a (ix3 b l n) := rfl
theorem rowSumOf_apply (a : S64x16x65536.Idx → EReal) (b : Fin 64) (k : Fin 16) (u : Fin 1) :
    rowSumOf a (ix3 b k u) = ∑ n : Fin 65536, a (ix3 b k n) := rfl

end Cert.KernelIdeal.RegionValue

end
-- ==== Proof.LibPairAxes.lean ====
/-
  A matrix [a, b] spread over the pairs of a third axis, read at coordinates; generic in every extent.

  A value per (p, q) laid down as [a, b, 1] (axes 0 and 1) and copied along axis 2 to [a, b, c] reads at (p, q, r) its
  entry (p, q); a value per (p, r) laid down as [a, 1, c] (axes 0 and 2) and copied along axis 1 to [a, b, c] reads at
  (p, q, r) its entry (p, r) — the two layouts whose sum or product ranges over all pairs (q, r) of rows of batch p.
  A scalar copied to any shape reads the scalar everywhere.  Dropping a trailing unit axis, [a, b, 1] → [a, b], reads
  at (p, q) the entry (p, q, 0).
-/
import Idealize.ShloMosaic.Lib.Pipeline.Value
import Idealize.ShloMosaic.Lib.ValueIdx

namespace Cert.LibPairAxes

open Idealize.ShloMosaic Idealize.ShloMosaic.ValueIdx

variable {α : Type} {a b c : ℕ}

/-- A coordinate below n is 0 when n = 1. -/
theorem unit_or (n : ℕ) (p : Fin n) : p.val = if n = 1 then 0 else p.val := by
  split
  · have := p.isLt; omega
  · rfl

/-- `[a,b] → [a,b,1] → [a,b,c]`: at (p, q, r) the entry (p, q). -/
theorem along_rows_apply (v : (⟨2, ![a, b]⟩ : Shape).Idx → α)
    (h1 : (⟨2, ![a, b]⟩ : Shape).BroadcastsInDim ⟨3, ![a, b, 1]⟩ (![0, 1] : Fin 2 → Fin 3))
    (h2 : (⟨3, ![a, b, 1]⟩ : Shape).BroadcastsInDim ⟨3, ![a, b, c]⟩ (![0, 1, 2] : Fin 3 → Fin 3))
    (p : Fin a) (q : Fin b) (r : Fin c) :
    broadcastInDim ⟨3, ![a, b, c]⟩ ![0, 1, 2] h2 (broadcastInDim ⟨3, ![a, b, 1]⟩ ![0, 1] h1 v) (ix3 p q r)
      = v (ix2 p q) := by
  rw [broadcastInDim_apply _ h2 _ (ix3 p q r) (ix3 p q (0 : Fin 1)) (fun ax => by
    match ax with
    | ⟨0, _⟩ => exact unit_or a p
    | ⟨1, _⟩ => exact unit_or b q
    | ⟨2, _⟩ => show 0 = if (1 : ℕ) = 1 then 0 else r.val; rw [if_pos rfl])]
  exact broadcastInDim_apply _ h1 v (ix3 p q (0 : Fin 1)) (ix2 p q) (fun ax => by
    match ax with
    | ⟨0, _⟩ => exact unit_or a p
    | ⟨1, _⟩ => exact unit_or b q)

/-- `[a,c] → [a,1,c] → [a,b,c]`: at (p, q, r) the entry (p, r). -/
theorem along_cols_apply (v : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, b, c]⟩ (![0, 1, 2] : Fin 3 → Fin 3))
    (p : Fin a) (q : Fin b) (r : Fin c) :
    broadcastInDim ⟨3, ![a, b, c]⟩ ![0, 1, 2] h2 (broadcastInDim ⟨3, ![a, 1, c]⟩ ![0, 2] h1 v) (ix3 p q r)
      = v (ix2 p r) := by
  rw [broadcastInDim_apply _ h2 _ (ix3 p q r) (ix3 p (0 : Fin 1) r) (fun ax => by
    match ax with
    | ⟨0, _⟩ => exact unit_or a p
    | ⟨1, _⟩ => show 0 = if (1 : ℕ) = 1 then 0 else q.val; rw [if_pos rfl]
    | ⟨2, _⟩ => exact unit_or c r)]
  exact broadcastInDim_apply _ h1 v (ix3 p (0 : Fin 1) r) (ix2 p r) (fun ax => by
    match ax with
    | ⟨0, _⟩ => exact unit_or a p
    | ⟨1, _⟩ => exact unit_or c r)

/-- A scalar copied to any shape reads the scalar at every index. -/
theorem scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 (fun ax => ax.elim0)

/-- `[a,b,1] → [a,b]`: at (p, q) the entry (p, q, 0). -/
theorem shapeCast_ab1_ab_apply (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

end Cert.LibPairAxes
-- ==== Proof.DiceSpec.lean ====
/-
  What both programs compute once the normalised row sums s[b,k] and the normalised Gram entries g[b,k,l] are known.

  dice[b,k,l] = (2 g[b,k,l] + 0.1) / (s[b,k] + s[b,l] + 0.1): the row sums are laid along axis 1 and along axis 2 of
  a [64,16,16] array and added.  The result is the mean over b of dice, masked to the pairs k < l, summed and divided
  by the number 120 of such pairs; that last stretch is one function of the dice array, the same on both sides, and
  nothing about it is ever needed beyond that.
-/
import proofs.«156528_j19550691131598_1_alg».proof.ReferenceIdeal
import proofs.«156528_j19550691131598_1_alg».proof.Proof.LibPairAxes
import Idealize.ShloMosaic.PureOps.Ideal.Laws
import Idealize.ShloMosaic.Lib.Pipeline.Value
import Idealize.ShloMosaic.Lib.ValueIdx

noncomputable section

namespace Cert.DiceSpec

open Idealize.ShloMosaic Idealize.ShloMosaic.ValueIdx Cert.ReferenceIdeal
open Cert.ReferenceIdeal.Facts₀

variable [Cert.ReferenceIdeal.Facts]

/-- The dice ratios from the normalised row sums and Gram entries. -/
def dice (sums : FVec Ideal S64x16 .f32) (gram : FVec Ideal S64x16x16 .f32) : FVec Ideal S64x16x16 .f32 :=
  Host.divf (F := Ideal)
    (addf (mulf (broadcastInDim S64x16x16 ![] bcast_S_S64x16x16 (constant (F := Ideal) S_ .f32 0x40000000#32)) gram)
      (broadcastInDim S64x16x16 ![] bcast_S_S64x16x16 (constant (F := Ideal) S_ .f32 0x3DCCCCCD#32)))
    (addf
      (addf
        (broadcastInDim S64x16x16 ![0, 1, 2] bcast_S64x16x1_S64x16x16_0_1_2
          (broadcastInDim S64x16x1 ![0, 1] bcast_S64x16_S64x16x1_0_1 sums))
        (broadcastInDim S64x16x16 ![0, 1, 2] bcast_S64x1x16_S64x16x16_0_1_2
          (broadcastInDim S64x1x16 ![0, 2] bcast_S64x16_S64x1x16_0_2 sums)))
      (broadcastInDim S64x16x16 ![] bcast_S_S64x16x16 (constant (F := Ideal) S_ .f32 0x3DCCCCCD#32)))

/-- The mean over the batch, the mask of the pairs k < l, the sum and the division by the number of pairs. -/
def tail (d : FVec Ideal S64x16x16 .f32) : FVec Ideal S_ .f32 :=
  Host.divf (F := Ideal)
    (Host.reduceAdd (F := Ideal)
      (select
        (select
          (cmpi .sge (addi (iotaInDim S16x16 32 0) (broadcastInDim S16x16 ![] bcast_S_S16x16 (constantI S_ 32 0#32)))
            (iotaInDim S16x16 32 1))
          (broadcastInDim S16x16 ![] bcast_S_S16x16 (constantI S_ 1 0#1))
          (broadcastInDim S16x16 ![] bcast_S_S16x16 (constantI S_ 1 1#1)))
        (Host.divf (F := Ideal)
          (Host.reduceAdd (F := Ideal) d (constant (F := Ideal) S_ .f32 0x00000000#32) reducesTo_S64x16x16_S16x16_d0 h_S_)
          (broadcastInDim S16x16 ![] bcast_S_S16x16 (constant (F := Ideal) S_ .f32 0x42800000#32)))
        (broadcastInDim S16x16 ![] bcast_S_S16x16 (id (constant (F := Ideal) S_ .f32 0x00000000#32))))
      (constant (F := Ideal) S_ .f32 0x00000000#32) reducesTo_S16x16_S_d0_1 h_S_)
    (constant (F := Ideal) S_ .f32 0x42F00000#32)

/-- The dice ratio at (b, k, l). -/
theorem dice_apply (sums : FVec Ideal S64x16 .f32) (gram : FVec Ideal S64x16x16 .f32) (b : Fin 64) (k l : Fin 16) :
    dice sums gram (ix3 b k l)
      = Ideal.div (Ideal.ofBits .f32 0x40000000#32 * gram (ix3 b k l) + Ideal.ofBits .f32 0x3DCCCCCD#32)
          (sums (ix2 b k) + sums (ix2 b l) + Ideal.ofBits .f32 0x3DCCCCCD#32) := by
  show Ideal.div (Ideal.ofBits .f32 0x40000000#32 * gram (ix3 b k l) + Ideal.ofBits .f32 0x3DCCCCCD#32)
      (broadcastInDim S64x16x16 ![0, 1, 2] bcast_S64x16x1_S64x16x16_0_1_2
          (broadcastInDim S64x16x1 ![0, 1] bcast_S64x16_S64x16x1_0_1 sums) (ix3 b k l)
        + broadcastInDim S64x16x16 ![0, 1, 2] bcast_S64x1x16_S64x16x16_0_1_2
          (broadcastInDim S64x1x16 ![0, 2] bcast_S64x16_S64x1x16_0_2 sums) (ix3 b k l)
        + Ideal.ofBits .f32 0x3DCCCCCD#32) = _
  rw [Cert.LibPairAxes.along_rows_apply sums bcast_S64x16_S64x16x1_0_1 bcast_S64x16x1_S64x16x16_0_1_2 b k l,
    Cert.LibPairAxes.along_cols_apply sums bcast_S64x16_S64x1x16_0_2 bcast_S64x1x16_S64x16x16_0_1_2 b k l]

end Cert.DiceSpec

end
-- ==== Proof.HostValue.lean ====
/-
  The kernel program's host lines after the region, on the extended reals.

  From the two arrays S (the row sums, [64,16,1]) and G (the pairwise products, [64,16,16]) the region leaves, the
  host lines drop S's unit axis, form the denominators d = S + ε, the normalised row sums S / d and the normalised
  Gram entries G[b,k,l] / (d[b,k] · d[b,l]) — the denominators laid along axis 1 and along axis 2 and multiplied —
  and from those two arrays go on exactly as the reference does: the dice ratios, then their masked mean.
-/
import proofs.«156528_j19550691131598_1_alg».proof.Proof.Gen.KernelIdeal.Frame
import proofs.«156528_j19550691131598_1_alg».proof.Proof.DiceSpec
import proofs.«156528_j19550691131598_1_alg».proof.Proof.LibPairAxes
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostValue

open Idealize.ShloMosaic Idealize.ShloMosaic.TcCoe Idealize.ShloMosaic.ValueIdx Idealize.SL.Sem
open Idealize.ShloMosaic.StableHlo
open Cert.KernelIdeal Cert.KernelIdeal.Gen

variable [Cert.KernelIdeal.Facts] [Cert.ReferenceIdeal.Facts]

/-- The denominators: the row sums without their unit axis, plus ε. -/
def denom (s : FVec Ideal S64x16x1 .f32) : FVec Ideal S64x16 .f32 :=
  addf (shapeCast S64x16 s Cert.KernelIdeal.Facts₀.shapeCasts_S64x16x1_S64x16)
    (broadcastInDim S64x16 ![] Cert.KernelIdeal.Facts₀.bcast_S_S64x16 (constant (F := Ideal) S_ .f32 0x322BCC77#32))

/-- The normalised row sums. -/
def sumsK (s : FVec Ideal S64x16x1 .f32) : FVec Ideal S64x16 .f32 :=
  Host.divf (F := Ideal) (shapeCast S64x16 s Cert.KernelIdeal.Facts₀.shapeCasts_S64x16x1_S64x16) (denom s)

/-- The normalised Gram entries. -/
def gramK (g : FVec Ideal S64x16x16 .f32) (s : FVec Ideal S64x16x1 .f32) : FVec Ideal S64x16x16 .f32 :=
  Host.divf (F := Ideal) g
    (mulf
      (broadcastInDim S64x16x16 ![0, 1, 2] Cert.KernelIdeal.Facts₀.bcast_S64x16x1_S64x16x16_0_1_2
        (broadcastInDim S64x16x1 ![0, 1] Cert.KernelIdeal.Facts₀.bcast_S64x16_S64x16x1_0_1 (denom s)))
      (broadcastInDim S64x16x16 ![0, 1, 2] Cert.KernelIdeal.Facts₀.bcast_S64x1x16_S64x16x16_0_1_2
        (broadcastInDim S64x1x16 ![0, 2] Cert.KernelIdeal.Facts₀.bcast_S64x16_S64x1x16_0_2 (denom s))))

/-! ## The three arrays at coordinates -/

/-- The denominator of row (b, k): its sum plus ε. -/
theorem denom_apply (s : FVec Ideal S64x16x1 .f32) (b : Fin 64) (k : Fin 16) :
    denom s (ix2 b k) = s (ix3 b k (0 : Fin 1)) + Ideal.ofBits .f32 0x322BCC77#32 := by
  show shapeCast S64x16 s Cert.KernelIdeal.Facts₀.shapeCasts_S64x16x1_S64x16 (ix2 b k)
      + broadcastInDim S64x16 ![] Cert.KernelIdeal.Facts₀.bcast_S_S64x16 (constant (F := Ideal) S_ .f32 0x322BCC77#32) (ix2 b k)
      = _
  rw [Cert.LibPairAxes.shapeCast_ab1_ab_apply s Cert.KernelIdeal.Facts₀.shapeCasts_S64x16x1_S64x16 b k,
    Cert.LibPairAxes.scalar_apply (constant (F := Ideal) S_ .f32 0x322BCC77#32) Cert.KernelIdeal.Facts₀.bcast_S_S64x16 (ix2 b k)]
  rfl

/-- The normalised row sum of row (b, k). -/
theorem sumsK_apply (s : FVec Ideal S64x16x1 .f32) (b : Fin 64) (k : Fin 16) :
    sumsK s (ix2 b k)
      = Ideal.div (s (ix3 b k (0 : Fin 1))) (s (ix3 b k (0 : Fin 1)) + Ideal.ofBits .f32 0x322BCC77#32) := by
  show Ideal.div (shapeCast S64x16 s Cert.KernelIdeal.Facts₀.shapeCasts_S64x16x1_S64x16 (ix2 b k)) (denom s (ix2 b k)) = _
  rw [Cert.LibPairAxes.shapeCast_ab1_ab_apply s Cert.KernelIdeal.Facts₀.shapeCasts_S64x16x1_S64x16 b k, denom_apply]

/-- The normalised Gram entry of the rows (b, k) and (b, l). -/
theorem gramK_apply (g : FVec Ideal S64x16x16 .f32) (s : FVec Ideal S64x16x1 .f32) (b : Fin 64) (k l : Fin 16) :
    gramK g s (ix3 b k l)
      = Ideal.div (g (ix3 b k l))
          ((s (ix3 b k (0 : Fin 1)) + Ideal.ofBits .f32 0x322BCC77#32)
            * (s (ix3 b l (0 : Fin 1)) + Ideal.ofBits .f32 0x322BCC77#32)) := by
  show Ideal.div (g (ix3 b k l))
      (broadcastInDim S64x16x16 ![0, 1, 2] Cert.KernelIdeal.Facts₀.bcast_S64x16x1_S64x16x16_0_1_2
          (broadcastInDim S64x16x1 ![0, 1] Cert.KernelIdeal.Facts₀.bcast_S64x16_S64x16x1_0_1 (denom s)) (ix3 b k l)
        * broadcastInDim S64x16x16 ![0, 1, 2] Cert.KernelIdeal.Facts₀.bcast_S64x1x16_S64x16x16_0_1_2
          (broadcastInDim S64x1x16 ![0, 2] Cert.KernelIdeal.Facts₀.bcast_S64x16_S64x1x16_0_2 (denom s)) (ix3 b k l)) = _
  rw [Cert.LibPairAxes.along_rows_apply (denom s) Cert.KernelIdeal.Facts₀.bcast_S64x16_S64x16x1_0_1
      Cert.KernelIdeal.Facts₀.bcast_S64x16x1_S64x16x16_0_1_2 b k l,
    Cert.LibPairAxes.along_cols_apply (denom s) Cert.KernelIdeal.Facts₀.bcast_S64x16_S64x1x16_0_2
      Cert.KernelIdeal.Facts₀.bcast_S64x1x16_S64x16x16_0_1_2 b k l, denom_apply, denom_apply]

variable (m : (ℓ : Loc nD τ sig) → Buf (Elt Ideal) ℓ)

set_option maxHeartbeats 4000000 in
/-- The program's result after the host lines, from the two arrays the region leaves. -/
theorem result_eq (c : Dev nD) :
    Pipeline.afterTail₀ cfgs (dats m) 0 (V0 m) [hostOps1, hostOps1_1, hostOps1_2, hostOps1_3, hostOps1_4] c main_v30
      = Cert.DiceSpec.tail (Cert.DiceSpec.dice (sumsK ((dats m 0 c).arrAt 2 cfg0.N))
          (gramK ((dats m 0 c).arrAt 1 cfg0.N) ((dats m 0 c).arrAt 2 cfg0.N))) := by
  have hG : Pipeline.withArrays (cfgs 0).spec c (V0 m c) (fun w => (dats m 0 c).arrAt w (cfgs 0).N)
      (Proc.devRef .tc main_v0_0) = (dats m 0 c).arrAt 1 cfg0.N :=
    Pipeline.withArrays_arr spec0 launch0.win.arr_inj c (V0 m c) (fun w => (dats m 0 c).arrAt w cfg0.N) 1
  have hS : Pipeline.withArrays (cfgs 0).spec c (V0 m c) (fun w => (dats m 0 c).arrAt w (cfgs 0).N)
      (Proc.devRef .tc main_v0_1) = (dats m 0 c).arrAt 2 cfg0.N :=
    Pipeline.withArrays_arr spec0 launch0.win.arr_inj c (V0 m c) (fun w => (dats m 0 c).arrAt w cfg0.N) 2
  unfold Pipeline.afterTail₀
  simp only [hostOps1, hostOps1_1, hostOps1_2, hostOps1_3, hostOps1_4, List.flatten_cons, List.flatten_nil,
    List.append_nil, List.cons_append, List.nil_append]
  after_results_simp
  rw [hG, hS]
  rfl

end Cert.KernelIdeal.HostValue

end
-- ==== Proof.KernelRun.lean ====
/-
  The kernel program's run with its result named.

  The generated frame run leaves the two region outputs at what the blocks wrote and every other buffer at what the
  host lines after the region compute from them; with the region's outputs read as the row sums and the pairwise
  products of the argument (the region-value module) and the host lines as the normalisation followed by the common
  dice tail (the host-value module), the result buffer holds the masked mean of the dice ratios of the argument.
-/
import proofs.«156528_j19550691131598_1_alg».proof.Proof.RegionValue
import proofs.«156528_j19550691131598_1_alg».proof.Proof.HostValue

set_option maxRecDepth 16384

noncomputable section

namespace Cert.KernelIdeal.RunValue

open Idealize.ShloMosaic Idealize.ShloMosaic.TcCoe Idealize.SL.Sem
open Cert.KernelIdeal Cert.KernelIdeal.Gen Cert.KernelIdeal.RegionValue Cert.KernelIdeal.HostValue

variable [Cert.KernelIdeal.Facts] [Cert.ReferenceIdeal.Facts]

/-- The result buffer is neither scoped nor one of the region's arrays. -/
theorem result_rest : main_v30 ∈ Pipeline.restRefs sig (cfgs 0).spec :=
  Pipeline.mem_restRefs_of main_v30 rfl (fun w => by
    match w with
    | ⟨0, _⟩ => show main_arg0 ≠ main_v30; decide
    | ⟨1, _⟩ => show main_v0_0 ≠ main_v30; decide
    | ⟨2, _⟩ => show main_v0_1 ≠ main_v30; decide)

/-- Every weakly fair execution of the kernel program ends with the result at the common tail of the dice ratios formed
    from the argument's row sums and pairwise products, and the argument unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30)
          = Cert.DiceSpec.tail (Cert.DiceSpec.dice (sumsK (rowSumOf (m ((c.tc : Thread nD τ).loc main_arg0))))
              (gramK (gramOf (m ((c.tc : Thread nD τ).loc main_arg0))) (rowSumOf (m ((c.tc : Thread nD τ).loc main_arg0)))))
      ∧ r.2.mem ((c.tc : Thread nD τ).loc main_arg0) = m ((c.tc : Thread nD τ).loc main_arg0)) :=
  (θ_run defs _ _).mono (fun r h c =>
    ⟨((h c).2 main_v30 result_rest).trans (by rw [result_eq m c, gram_final m c, rowSum_final m c]),
      ((h c).1 0).trans (((dats m 0 c).arrAt_in 0 rfl _).trans ((A_eq m c 0).trans (V_main_arg0 m c)))⟩)
    (run_main m ρ)

end Cert.KernelIdeal.RunValue

end
-- ==== Proof.RefRead.lean ====
/-
  The reference program read at an index, on the extended reals.

  Every entry is divided by its row's denominator d[b,k] = Σ_n a(b,k,n) + ε first.  The normalised row sums are then
  Σ_n a(b,k,n) / d[b,k], the normalised Gram entries Σ_n (a(b,k,n) / d[b,k]) · (a(b,l,n) / d[b,l]), and from those
  two arrays the program goes on to the dice ratios and their masked mean.
-/
import proofs.«156528_j19550691131598_1_alg».proof.Proof.Gen.ReferenceIdeal.Read
import proofs.«156528_j19550691131598_1_alg».proof.Proof.DiceSpec

noncomputable section

namespace Cert.ReferenceIdeal.RefValue

open Idealize.ShloMosaic Idealize.ShloMosaic.ValueIdx
open Cert.ReferenceIdeal Cert.ReferenceIdeal.Read Cert.ReferenceIdeal.Facts₀

variable [Cert.ReferenceIdeal.Facts]

/-- A normalised entry: the entry over its row's sum plus ε. -/
theorem normalised_apply (x0 : FVec Ideal S64x16x65536 .f32) (b : Fin 64) (k : Fin 16) (n : Fin 65536) :
    val_main_v5 (F := Ideal) x0 (ix3 b k n)
      = Ideal.div (x0 (ix3 b k n)) ((∑ n' : Fin 65536, x0 (ix3 b k n')) + Ideal.ofBits .f32 0x322BCC77#32) := by
  have i4 : idx_main_v4 (ix3 b k n) = ix3 b k (0 : Fin 1) :=
    funext fun a => Fin.ext (by match a with | ⟨0, _⟩ => rfl | ⟨1, _⟩ => rfl | ⟨2, _⟩ => rfl)
  have i1 : idx_main_v1 (ix3 b k (0 : Fin 1)) = ix2 b k :=
    funext fun a => Fin.ext (by match a with | ⟨0, _⟩ => rfl | ⟨1, _⟩ => rfl)
  have i0 : ∀ n' : Fin 65536, idx_main_v0 (ix2 b k) n' = ix3 b k n' := fun n' =>
    funext fun a => Fin.ext (by match a with | ⟨0, _⟩ => rfl | ⟨1, _⟩ => rfl | ⟨2, _⟩ => rfl)
  rw [val_main_v5_apply, val_main_v4_apply, i4, val_main_v3_apply, val_main_v1_apply, i1, val_main_v0_apply,
    val_main_v2_apply, val_main_cst_0_apply, val_main_cst_apply]
  simp only [i0, Ideal.hostDivf_def, Ideal.addf_def, Ideal.ofBits_def, Ideal.ofBits_zero_f32, zero_add]

/-- The normalised row sum of row (b, k). -/
theorem sums_apply (x0 : FVec Ideal S64x16x65536 .f32) (b : Fin 64) (k : Fin 16) :
    val_main_v6 (F := Ideal) x0 (ix2 b k)
      = ∑ n : Fin 65536, Ideal.div (x0 (ix3 b k n))
          ((∑ n' : Fin 65536, x0 (ix3 b k n')) + Ideal.ofBits .f32 0x322BCC77#32) := by
  have i6 : ∀ n : Fin 65536, idx_main_v6 (ix2 b k) n = ix3 b k n := fun n =>
    funext fun a => Fin.ext (by match a with | ⟨0, _⟩ => rfl | ⟨1, _⟩ => rfl | ⟨2, _⟩ => rfl)
  rw [val_main_v6_apply, val_main_cst_1_apply]
  simp only [i6, normalised_apply, Ideal.ofBits_def, Ideal.ofBits_zero_f32, zero_add]

/-- The normalised Gram entry of the rows (b, k) and (b, l). -/
theorem gram_apply (x0 : FVec Ideal S64x16x65536 .f32) (b : Fin 64) (k l : Fin 16) :
    val_main_v7 (F := Ideal) x0 (ix3 b k l)
      = ∑ n : Fin 65536,
          Ideal.div (x0 (ix3 b k n)) ((∑ n' : Fin 65536, x0 (ix3 b k n')) + Ideal.ofBits .f32 0x322BCC77#32)
          * Ideal.div (x0 (ix3 b l n)) ((∑ n' : Fin 65536, x0 (ix3 b l n')) + Ideal.ofBits .f32 0x322BCC77#32) := by
  have il : ∀ n : Fin 65536, lidx_main_v7 (ix3 b k l) n = ix3 b k n := fun n =>
    funext fun a => Fin.ext (by match a with | ⟨0, _⟩ => rfl | ⟨1, _⟩ => rfl | ⟨2, _⟩ => rfl)
  have ir : ∀ n : Fin 65536, ridx_main_v7 (ix3 b k l) n = ix3 b l n := fun n =>
    funext fun a => Fin.ext (by match a with | ⟨0, _⟩ => rfl | ⟨1, _⟩ => rfl | ⟨2, _⟩ => rfl)
  rw [val_main_v7_apply]
  simp only [il, ir, normalised_apply]

/-- The reference's result is the masked mean of the dice ratios of its normalised row sums and Gram entries. -/
theorem result_eq (x0 : FVec Ideal S64x16x65536 .f32) :
    val_main_v27 (F := Ideal) x0
      = Cert.DiceSpec.tail (Cert.DiceSpec.dice (val_main_v6 (F := Ideal) x0) (val_main_v7 (F := Ideal) x0)) := rfl

end Cert.ReferenceIdeal.RefValue

end
-- ==== Proof.DiceAlgebra.lean ====
/-
  The one law that joins the two ways of computing a pairwise dice ratio, on the extended reals.

  For two rows x, y of real numbers and a positive real e put S(x) = Σ x_n and d(x) = S(x) + e.  One side divides
  after summing: the normalised row sum is S(x) / d(x) and the normalised Gram entry is (Σ x_n y_n) / (d(x) d(y)).
  The other side divides every entry first: Σ (x_n / d(x)) and Σ (x_n / d(x)) (y_n / d(y)).  When both
  denominators are nonzero these agree because everything is a real number and the sum is linear.  When d(x) = 0
  the row sum S(x) = -e is negative, so some entry of the row is negative: S(x) / 0 = -∞, and among the quotients
  x_n / 0 (each ±∞) one is -∞, which makes their sum -∞ as well.  The Gram entries may then differ (0 / 0 against a
  sum of infinities), but the dice ratio divides by (row sum of x) + (row sum of y) + c = -∞, and any extended real
  divided by -∞ is 0: both ratios are 0.
-/
import Idealize.ShloMosaic.PureOps.Ideal
import Mathlib

noncomputable section

namespace Cert.DiceAlgebra

open Idealize.ShloMosaic

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Anything divided by -∞ is 0. -/
theorem div_bot (z : EReal) : Ideal.div z ⊥ = 0 := by
  rw [Ideal.div, if_neg (by simp), EReal.inv_bot, mul_zero]

/-- A negative number divided by 0 is -∞. -/
theorem div_zero_of_neg {x : EReal} (h : x < 0) : Ideal.div x 0 = ⊥ := by
  rw [Ideal.div, if_pos rfl, if_neg (not_lt.2 h.le)]

/-- A finite sum with a term -∞ is -∞. -/
theorem sum_eq_bot {ι : Type*} (s : Finset ι) (f : ι → EReal) {i : ι} (hi : i ∈ s) (h : f i = ⊥) :
    ∑ j ∈ s, f j = ⊥ := by
  classical
  rw [← Finset.add_sum_erase s f hi, h, EReal.bot_add]

variable {N : ℕ}

/-- By a nonzero real, the sum of the quotients is the quotient of the sum. -/
theorem sum_div {d : ℝ} (hd : d ≠ 0) (x : Fin N → ℝ) :
    ∑ n, Ideal.div (x n : EReal) (d : EReal) = Ideal.div ((∑ n, x n : ℝ) : EReal) (d : EReal) := by
  simp only [Ideal.div_coe hd, ← EReal.coe_mul, ← coe_sum, Finset.sum_mul]

/-- By nonzero reals, the sum of the products of the quotients is the sum of the products over the product of the
    denominators. -/
theorem sum_div_mul_div {d d' : ℝ} (hd : d ≠ 0) (hd' : d' ≠ 0) (x y : Fin N → ℝ) :
    ∑ n, Ideal.div (x n : EReal) (d : EReal) * Ideal.div (y n : EReal) (d' : EReal)
      = Ideal.div ((∑ n, x n * y n : ℝ) : EReal) ((d : EReal) * (d' : EReal)) := by
  rw [← EReal.coe_mul d d', Ideal.div_coe (mul_ne_zero hd hd')]
  simp only [Ideal.div_coe hd, Ideal.div_coe hd', ← EReal.coe_mul, ← coe_sum]
  refine congrArg (fun r : ℝ => (r : EReal)) ?_
  rw [Finset.sum_mul]
  refine Finset.sum_congr rfl fun n _ => ?_
  field_simp

/-- When the denominator S(x) + e vanishes, both forms of the normalised row sum are -∞. -/
theorem row_bot {e : ℝ} (he : 0 < e) (x : Fin N → ℝ) (h : (∑ n, x n) + e = 0) :
    Ideal.div ((∑ n, x n : ℝ) : EReal) (0 : EReal) = ⊥ ∧ ∑ n, Ideal.div (x n : EReal) (0 : EReal) = ⊥ := by
  have hneg : (∑ n, x n) < 0 := by linarith
  refine ⟨div_zero_of_neg (by exact_mod_cast hneg), ?_⟩
  obtain ⟨n0, hn0⟩ : ∃ n, x n < 0 := by
    by_contra hc
    have hnn : ∀ n, 0 ≤ x n := fun n => not_lt.1 fun hlt => hc ⟨n, hlt⟩
    have := Finset.sum_nonneg fun n (_ : n ∈ Finset.univ) => hnn n
    linarith
  exact sum_eq_bot _ _ (Finset.mem_univ n0) (div_zero_of_neg (by exact_mod_cast hn0))

/-- The dice ratio of a pair of rows, dividing after summing (left) and dividing every entry first (right). -/
theorem dice_eq {e : ℝ} (he : 0 < e) (two c : EReal) (x y : Fin N → ℝ) :
    Ideal.div
        (two * Ideal.div (∑ n, (x n : EReal) * (y n : EReal))
            (((∑ n, (x n : EReal)) + (e : EReal)) * ((∑ n, (y n : EReal)) + (e : EReal))) + c)
        (Ideal.div (∑ n, (x n : EReal)) ((∑ n, (x n : EReal)) + (e : EReal))
          + Ideal.div (∑ n, (y n : EReal)) ((∑ n, (y n : EReal)) + (e : EReal)) + c)
      = Ideal.div
        (two * (∑ n, Ideal.div (x n : EReal) ((∑ n, (x n : EReal)) + (e : EReal))
            * Ideal.div (y n : EReal) ((∑ n, (y n : EReal)) + (e : EReal))) + c)
        ((∑ n, Ideal.div (x n : EReal) ((∑ n, (x n : EReal)) + (e : EReal)))
          + (∑ n, Ideal.div (y n : EReal) ((∑ n, (y n : EReal)) + (e : EReal))) + c) := by
  simp only [← EReal.coe_mul, ← coe_sum, ← EReal.coe_add]
  by_cases hx : (∑ n, x n) + e = 0
  · obtain ⟨h1, h2⟩ := row_bot he x hx
    rw [hx, EReal.coe_zero, h1, h2]
    simp only [EReal.bot_add, div_bot]
  · by_cases hy : (∑ n, y n) + e = 0
    · obtain ⟨h1, h2⟩ := row_bot he y hy
      rw [hy, EReal.coe_zero, h1, h2]
      simp only [EReal.add_bot, EReal.bot_add, div_bot]
    · rw [sum_div hx, sum_div hy, sum_div_mul_div hx hy, EReal.coe_mul]

end Cert.DiceAlgebra

end
-- ==== Proof.LibFinite.lean ====
/-
  "Every entry is a real number" is kept by the operations of a dense network, on the extended reals.

  An array over the extended reals is ALL REAL when none of its entries is an infinity.  The property passes
  through: every operation that only re-reads its operand at some index (a broadcast, a reshape, a slice, a
  row gather), the pointwise sum, difference, product and maximum, a matrix product (host or vector unit, zero
  accumulator: a finite sum of products), a host sum along axes, the accumulating scatter (each entry plus a
  finite sum of updates), and a quotient by an all-real array with no zero entry.  Nothing here depends on the
  shapes or on which index an operation reads.
-/
import Idealize.ShloMosaic.PureOps.Ideal.Laws
import Mathlib

noncomputable section

namespace Cert.LibFinite

open Idealize.ShloMosaic

/-- Every entry of the array is a real number. -/
def AllReal {ι : Type*} (x : ι → EReal) : Prop := ∀ i, ∃ r : ℝ, x i = (r : EReal)

/-! ## Scalars -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem coe_max (r s : ℝ) : max (r : EReal) (s : EReal) = ((max r s : ℝ) : EReal) := by
  rcases le_total r s with h | h
  · rw [max_eq_right h, max_eq_right (EReal.coe_le_coe_iff.2 h)]
  · rw [max_eq_left h, max_eq_left (EReal.coe_le_coe_iff.2 h)]

theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- The maximum of a real and a positive real is a nonzero real. -/
theorem real_max_pos {a : EReal} (ha : ∃ r : ℝ, a = (r : EReal)) {s : ℝ} (hs : 0 < s) :
    ∃ r : ℝ, max a (s : EReal) = (r : EReal) ∧ r ≠ 0 := by
  obtain ⟨r, rfl⟩ := ha
  exact ⟨max r s, coe_max r s, ne_of_gt (lt_of_lt_of_le hs (le_max_right r s))⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem real_div {a b : EReal} (ha : ∃ r : ℝ, a = (r : EReal)) (hb : ∃ r : ℝ, b = (r : EReal) ∧ r ≠ 0) :
    ∃ r : ℝ, Ideal.div a b = (r : EReal) := by
  obtain ⟨r, rfl⟩ := ha; obtain ⟨s, rfl, hs⟩ := hb
  exact ⟨r * (1 / s), by rw [Ideal.div_coe hs, ← EReal.coe_mul]⟩

/-! ## Arrays -/

variable {ι κ : Type*}

/-- Reading an all-real array at any indices gives an all-real array: broadcasts, reshapes, slices and gathers. -/
theorem AllReal.read {x : ι → EReal} (hx : AllReal x) (f : κ → ι) : AllReal fun j => x (f j) := fun j => hx (f j)

theorem AllReal.const {c : EReal} (hc : ∃ r : ℝ, c = (r : EReal)) : AllReal fun _ : ι => c := fun _ => hc

theorem AllReal.broadcastInDim {s t : Shape} {dims : Fin s.rank → Fin t.rank} (h : s.BroadcastsInDim t dims)
    {x : s.Idx → EReal} (hx : AllReal x) : AllReal (broadcastInDim t dims h x) := fun _ => hx _

theorem AllReal.gather {s si t : Shape} {w : Nat} (d : GatherDims s si t) {x : s.Idx → EReal} (hx : AllReal x)
    (idx : IVec si w) : AllReal (Host.gather d x idx) := fun _ => hx _

theorem AllReal.addf {s : Shape} {φ : FTy} {x y : FVec Ideal s φ} (hx : AllReal x) (hy : AllReal y) :
    AllReal (addf x y) := fun i => real_add (hx i) (hy i)

theorem AllReal.subf {s : Shape} {φ : FTy} {x y : FVec Ideal s φ} (hx : AllReal x) (hy : AllReal y) :
    AllReal (subf x y) := fun i => real_sub (hx i) (hy i)

theorem AllReal.mulf {s : Shape} {φ : FTy} {x y : FVec Ideal s φ} (hx : AllReal x) (hy : AllReal y) :
    AllReal (mulf x y) := fun i => real_mul (hx i) (hy i)

theorem AllReal.maximumf {s : Shape} {φ : FTy} {x y : FVec Ideal s φ} (hx : AllReal x) (hy : AllReal y) :
    AllReal (maximumf x y) := fun i => real_max (hx i) (hy i)

/-- A quotient by an all-real array without zero entries. -/
theorem AllReal.hostDivf {s : Shape} {φ : FTy} {x y : FVec Ideal s φ} (hx : AllReal x)
    (hy : ∀ i, ∃ r : ℝ, y i = (r : EReal) ∧ r ≠ 0) : AllReal (Host.divf x y) := fun i => real_div (hx i) (hy i)

/-- A host matrix product of all-real arrays, whatever its dimension numbers. -/
theorem AllReal.dotGeneral {sl sr so : Shape} {φ₁ φ₂ : FTy} (d : DotDims sl sr so) (prec : Option ContractPrecision)
    (sched : HostSchedule) {l : FVec Ideal sl φ₁} {r : FVec Ideal sr φ₂} (hl : AllReal l) (hr : AllReal r) :
    AllReal (FloatOps.dotGeneral d prec sched l r) := fun j => by
  rw [Ideal.dotGeneral_apply]
  exact real_sum _ _ fun k _ => real_mul (hl _) (hr _)

/-- The vector unit's matrix product into the zero accumulator. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (FloatOps.matmul d prec l r (constant so .f32 0x00000000#32)) := fun j => by
  rw [Ideal.matmul_constant_zero_apply]
  exact real_sum _ _ fun k _ => real_mul (hl _) (hr _)

/-- The accumulating scatter: each entry plus a finite sum of updates. -/
theorem AllReal.scatterAdd {s si su : Shape} {φ : FTy} {w : Nat} (d : ScatterDims s si su) {x : FVec Ideal s φ}
    (hx : AllReal x) (idx : IVec si w) {upd : FVec Ideal su φ} (hu : AllReal upd) :
    AllReal (Host.scatterAdd (F := Ideal) d x idx upd) := fun i =>
  real_add (hx i) (real_sum _ _ fun j _ => hu j)

end Cert.LibFinite

end
-- ==== Proof.LibFiniteInput.lean ====
/-
  A float array that passes the "all finite" test is all real.

  The finiteness test of an input, as a precondition states it, is the conjunction over all entries of
  |x| < +∞ (the and-reduction of the comparisons into one bit, from the initial bit 1).  On the extended reals
  |x| = max x (-x) is +∞ at both infinities, so the comparison holds exactly at the real entries: if the reduced
  bit is 1, no entry of the array is an infinity.
-/
import Idealize.ShloMosaic.Lib.ReduceAll
import proofs.«156528_j19550691131598_1_alg».proof.Proof.LibFinite

noncomputable section

namespace Cert.LibFiniteInput

open Idealize.ShloMosaic Cert.LibFinite

/-- The f32 word of +∞ denotes the top of the extended reals. -/
theorem ofBits_inf : Ideal.ofBits .f32 0x7F800000#32 = (⊤ : EReal) := by
  simp [Ideal.ofBits, Ideal.ieee]

/-- An extended real whose absolute value compares below +∞ is real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (⊤ : EReal) = 1#1 := by
    have := h
    rwa [Ideal.cmpf_def, Ideal.ofBits_def, ofBits_inf] at this
  induction x using EReal.rec with
  | bot => exact absurd h' (by simp [Ideal.cmp])
  | coe r => exact ⟨r, rfl⟩
  | top => exact absurd h' (by simp [Ideal.cmp])

instance : Subsingleton (⟨0, ![]⟩ : Shape).Idx := ⟨fun a b => funext fun d => d.elim0⟩

/-- If the and-reduction of the tests |x i| < +∞ over the whole array is the bit 1, every entry of x is real. -/
theorem allReal_of_test {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (j : (⟨0, ![]⟩ : Shape).Idx)
    (h : Host.reduce IntOp.andi
        (cmpf .olt (Host.absf x) (broadcastInDim s ![] hb (constant ⟨0, ![]⟩ .f32 0x7F800000#32)))
        (constantI ⟨0, ![]⟩ 1 1#1) hr hu j = 1#1) : AllReal x := fun i =>
  real_of_abs_lt_inf (x i) (Host.reduce_andi_all _ _ hr hu j h i)

end Cert.LibFiniteInput

end
-- ==== Proof.Bridge.lean ====
/-
  The two programs form the same dice ratios from a real-valued argument.

  At a triple (b, k, l) the kernel program's ratio is built from S / (S + ε) and G / ((S_k + ε)(S_l + ε)) with S the
  row sums and G the pairwise products of the rows of batch b; the reference's from Σ_n a_n / (S + ε) and
  Σ_n (a_kn / (S_k + ε)) (a_ln / (S_l + ε)).  With the rows real and ε the positive real the word 0x322BCC77 denotes,
  this is the law of the algebra module for the rows (b, k) and (b, l).  Finiteness is what makes the rows real.
-/
import proofs.«156528_j19550691131598_1_alg».proof.Proof.RegionValue
import proofs.«156528_j19550691131598_1_alg».proof.Proof.HostValue
import proofs.«156528_j19550691131598_1_alg».proof.Proof.RefRead
import proofs.«156528_j19550691131598_1_alg».proof.Proof.DiceAlgebra
import proofs.«156528_j19550691131598_1_alg».proof.Proof.LibFiniteInput
import proofs.«156528_j19550691131598_1_alg».proof.Pre_finite_inputs

noncomputable section

namespace Cert.Bridge

open Idealize.ShloMosaic Idealize.ShloMosaic.ValueIdx
open Cert.KernelIdeal.RegionValue Cert.KernelIdeal.HostValue

/-- The word 0x322BCC77 denotes the positive real 11258999 · 2^(-50). -/
theorem eps_real : ∃ e : ℝ, 0 < e ∧ Ideal.ofBits .f32 0x322BCC77#32 = (e : EReal) := by
  have h1 : ((0x322BCC77#32 : BitVec 32).extractLsb' 23 8).toNat = 100 := by decide
  have h2 : ((0x322BCC77#32 : BitVec 32).extractLsb' 0 23).toNat = 2870391 := by decide
  have h3 : ((0x322BCC77#32 : BitVec 32).extractLsb' (8 + 23) 1 == 1#1) = false := by decide
  refine ⟨(1 : ℝ) * ((2 ^ 23 + 2870391 : ℕ) : ℝ) * (2 : ℝ) ^ ((100 : ℤ) - (2 ^ (8 - 1) - 1) - 23), by positivity, ?_⟩
  show Ideal.ieee 8 23 (0x322BCC77#32 : BitVec 32) = _
  unfold Ideal.ieee
  simp only [h1, h2, h3]
  norm_num

/-- An argument that passes the finiteness test is real everywhere. -/
theorem allReal_of_pre [Cert.Pre_finite_inputs.Facts] (x : FVec Ideal Cert.Pre_finite_inputs.S64x16x65536 .f32)
    (h : Cert.Pre_finite_inputs.fn (F := Ideal) x = fun _ => 1#1) : Cert.LibFinite.AllReal x :=
  Cert.LibFiniteInput.allReal_of_test x Cert.Pre_finite_inputs.Facts.bcast_S_S64x16x65536
    Cert.Pre_finite_inputs.Facts.reducesTo_S64x16x65536_S_d0_1_2 Cert.Pre_finite_inputs.Facts.h_S_ ix0 (congrFun h ix0)

variable [Cert.KernelIdeal.Facts] [Cert.ReferenceIdeal.Facts]

/-- On a real-valued argument both programs form the same dice ratios. -/
theorem dice_agree (a : FVec Ideal Cert.ReferenceIdeal.S64x16x65536 .f32) (ha : Cert.LibFinite.AllReal a) :
    Cert.DiceSpec.dice (sumsK (rowSumOf a)) (gramK (gramOf a) (rowSumOf a))
      = Cert.DiceSpec.dice (Cert.ReferenceIdeal.Read.val_main_v6 (F := Ideal) a)
          (Cert.ReferenceIdeal.Read.val_main_v7 (F := Ideal) a) := by
  funext i
  obtain ⟨b, k, l, rfl⟩ : ∃ (b : Fin 64) (k l : Fin 16), i = ix3 b k l := ⟨i 0, i 1, i 2, eq_ix3 i⟩
  choose r hr using ha
  obtain ⟨e, he, hE⟩ := eps_real
  simp only [Cert.DiceSpec.dice_apply, sumsK_apply, gramK_apply, rowSumOf_apply, gramOf_apply,
    Cert.ReferenceIdeal.RefValue.sums_apply, Cert.ReferenceIdeal.RefValue.gram_apply, hr, hE]
  exact Cert.DiceAlgebra.dice_eq he _ _ (fun n => r (ix3 b k n)) (fun n => r (ix3 b l n))

end Cert.Bridge

end
-- ==== Proof.lean ====
/-
  The kernel computes, per batch, the row sums S[b,k] = Σ_n a(b,k,n) and the pairwise products
  G[b,k,l] = Σ_n a(b,k,n) a(b,l,n) of its [64,16,65536] argument, and its host lines normalise afterwards:
  S / (S + ε) and G[b,k,l] / ((S[b,k] + ε)(S[b,l] + ε)).  The reference normalises every entry first, a / (S + ε), and
  then takes the same sums.  From the normalised row sums and Gram entries both form the dice ratios
  (2 g + 0.1) / (s_k + s_l + 0.1), average them over the batch, keep the pairs k < l, sum and divide by 120.

  On the extended reals with a finite (hence real) argument the two normalisations agree whenever the denominators
  S + ε are nonzero, by linearity of the sum.  Where a denominator vanishes the row sum is -ε < 0, both normalised row
  sums are -∞, the dice ratio's own denominator is -∞ and both ratios are 0, whatever the Gram entries are.  So the
  dice arrays are equal and the common tail gives equal results.

  The frames of the two kernel programs are the generated ones; the reference's frame is its generated run.  The
  idealised kernel is the kernel's own text (no rewrite), so there is nothing to preserve.
-/
import proofs.«156528_j19550691131598_1_alg».proof.Defs
import proofs.«156528_j19550691131598_1_alg».proof.Proof.Gen.Kernel
import proofs.«156528_j19550691131598_1_alg».proof.Proof.Gen.Kernel.Skeleton
import proofs.«156528_j19550691131598_1_alg».proof.Proof.Gen.Kernel.Launch
import proofs.«156528_j19550691131598_1_alg».proof.Proof.Gen.Kernel.Points
import proofs.«156528_j19550691131598_1_alg».proof.Proof.Gen.Kernel.Frame
import proofs.«156528_j19550691131598_1_alg».proof.Proof.Gen.KernelIdeal
import proofs.«156528_j19550691131598_1_alg».proof.Proof.Gen.KernelIdeal.Skeleton
import proofs.«156528_j19550691131598_1_alg».proof.Proof.Gen.KernelIdeal.Launch
import proofs.«156528_j19550691131598_1_alg».proof.Proof.Gen.KernelIdeal.Points
import proofs.«156528_j19550691131598_1_alg».proof.Proof.Gen.KernelIdeal.Frame
import proofs.«156528_j19550691131598_1_alg».proof.Proof.Gen.ReferenceIdeal
import proofs.«156528_j19550691131598_1_alg».proof.Proof.Gen.Pre_finite_inputs
import proofs.«156528_j19550691131598_1_alg».proof.Proof.Gen.ReferenceIdeal.Run
import proofs.«156528_j19550691131598_1_alg».proof.Proof.Gen.ReferenceIdeal.Read
import proofs.«156528_j19550691131598_1_alg».proof.Proof.KernelRun
import proofs.«156528_j19550691131598_1_alg».proof.Proof.RefRead
import proofs.«156528_j19550691131598_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the masked mean of the dice ratios the reference forms from the (finite) argument. -/
theorem algebraic : Cert.algebraic_KernelIdeal_ReferenceIdeal := by
  intro m ρ m' ρ' hpre hagree
  refine ⟨fun c => Cert.DiceSpec.tail (Cert.DiceSpec.dice
      (Cert.ReferenceIdeal.Read.val_main_v6 (F := Ideal) (m ((c.tc : Thread Cert.KernelIdeal.nD Cert.KernelIdeal.τ).loc Cert.KernelIdeal.main_arg0)))
      (Cert.ReferenceIdeal.Read.val_main_v7 (F := Ideal) (m ((c.tc : Thread Cert.KernelIdeal.nD Cert.KernelIdeal.τ).loc Cert.KernelIdeal.main_arg0)))), ?_, ?_⟩
  · refine (θ_run Cert.KernelIdeal.defs _ _).mono (fun r h c => ⟨(h c).1.trans ?_, (h c).2⟩)
      (Cert.KernelIdeal.RunValue.run m ρ)
    exact congrArg Cert.DiceSpec.tail (Cert.Bridge.dice_agree _ (Cert.Bridge.allReal_of_pre _ (hpre c)))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
